-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S256x16 : Shape := ⟨2, ![256, 16]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S32x256x64x64 .f32) (main_arg1 : FVec F S16x256 .f32) (main_arg2 : FVec F S256x16 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S32x256x64x64 : Shape := ⟨4, ![32, 256, 64, 64]⟩
abbrev S16x256 : Shape := ⟨2, ![16, 256]⟩
abbrev S256x16 : Shape := ⟨2, ![256, 16]⟩
abbrev S32x256x4096 : Shape := ⟨3, ![32, 256, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩
abbrev S16x1 : Shape := ⟨2, ![16, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S256x16, .f32⟩
  | .hbm, ⟨3, _⟩ => ⟨S32x256x4096, .f32⟩
  | .hbm, ⟨4, _⟩ => ⟨S32x256x4096, .f32⟩
  | .hbm, ⟨5, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S16x256, .f32⟩
  | .local _ .vmem, ⟨3, _⟩ => ⟨S256x16, .f32⟩
  | .local _ .vmem, ⟨4, _⟩ => ⟨S1x256x4096, .f32⟩
  | .local _ .vmem, ⟨5, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x256x64x64_S32x256x4096 : S32x256x64x64.ShapeCasts S32x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  broadcasts_S256x1_S256x4096 : S256x1.Broadcasts S256x4096
  shapeCasts_S256x4096_S1x256x4096 : S256x4096.ShapeCasts S1x256x4096
  shapeCasts_S32x256x4096_S32x256x64x64 : S32x256x4096.ShapeCasts S32x256x64x64
  dot_S16x256_S256x1_S16x1_1_0_0_1_n_n_wf : DotDims.WF S16x256 S256x1 S16x1 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S32x256x4096.size a
  hwx0_3 : ∀ i : grid0.Coords, EltTy.bits .f32 = 32 ∨ (Rect.block (s := S32x256x4096) S1x256x4096.size (cc0_transform_3 i) (hinb0_3 i)).WholeWords (EltTy.packing .f32)

variable [Facts₀]

def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S256x16 : Shape := ⟨2, ![256, 16]⟩
abbrev S32x256x4096 : Shape := ⟨3, ![32, 256, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩
abbrev S256x2 : Shape := ⟨2, ![256, 2]⟩
abbrev S16x2 : Shape := ⟨2, ![16, 2]⟩

abbrev nBuf : Space → Nat
  | .hbm => 6
  | .vmem => 6
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S256x16, .f32⟩
  | .hbm, ⟨3, _⟩ => ⟨S32x256x4096, .f32⟩
  | .hbm, ⟨4, _⟩ => ⟨S32x256x4096, .f32⟩
  | .hbm, ⟨5, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S16x256, .f32⟩
  | .local _ .vmem, ⟨3, _⟩ => ⟨S256x16, .f32⟩
  | .local _ .vmem, ⟨4, _⟩ => ⟨S1x256x4096, .f32⟩
  | .local _ .vmem, ⟨5, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x256x64x64_S32x256x4096 : S32x256x64x64.ShapeCasts S32x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  concatenates_S256x1_S256x1_S256x2_d1 : Shape.Concatenates [S256x1, S256x1] S256x2 1
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  slices_S256x2_o0_0_S256x1 : S256x2.Slices ![0, 0] S256x1
  slices_S256x2_o0_1_S256x1 : S256x2.Slices ![0, 1] S256x1
  broadcasts_S256x1_S256x4096 : S256x1.Broadcasts S256x4096
  shapeCasts_S256x4096_S1x256x4096 : S256x4096.ShapeCasts S1x256x4096
  shapeCasts_S32x256x4096_S32x256x64x64 : S32x256x4096.ShapeCasts S32x256x64x64
  dot_S16x256_S256x2_S16x2_1_0_0_1_n_n_wf : DotDims.WF S16x256 S256x2 S16x2 [1] [0] [0] [1] [] []
  dot_S256x16_S16x2_S256x2_1_0_0_1_n_n_wf : DotDims.WF S256x16 S16x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S32x256x4096.size a
  hwx0_3 : ∀ i : grid0.Coords, EltTy.bits .f32 = 32 ∨ (Rect.block (s := S32x256x4096) S1x256x4096.size (cc0_transform_3 i) (hinb0_3 i)).WholeWords (EltTy.packing .f32)

variable [Facts₀]

def dot_S16x256_S256x2_S16x2_1_0_0_1_n_n : DotDims S16x256 S256x2 S16x2 where
  lhsContracting := [1]
  rhsContracting := [0]
  lhsNonContracting := [0]
  rhsNonContracting := [1]
  lhsBatch := []
  rhsBatch := []
  wf := dot_S16x256_S256x2_S16x2_1_0_0_1_n_n_wf
def dot_S256x16_S16x2_S256x2_1_0_0_1_n_n : DotDims S256x16 S16x2 S256x2 where
  lhsContracting := [1]
  rhsContracting := [0]
  lhsNonContracting := [0]
  rhsNonContracting := [1]
  lhsBatch := []
  rhsBatch := []
  wf := dot_S256x16_S16x2_S256x2_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.Gate.lean ====
/-
  The channel gate of the two bodies, before the logistic, is one vector.

  Both bodies reduce an image block `x : [256, 4096]` to two columns, the row means `a` and the row maxima `b`
  (`[256, 1]` each), and feed them to the shared two-layer perceptron `w1 : [16, 256]`, `w2 : [256, 16]`.
  One body adds the two hidden activations and multiplies once by `w2`:
      g c = ∑ k, w2 c k · (relu (∑ q, w1 k q · a q) + relu (∑ q, w1 k q · b q)),
  the other lays `a` and `b` side by side as a `[256, 2]` matrix, multiplies through both layers and adds the two
  resulting columns:
      g' c = ∑ k, w2 c k · relu (∑ q, w1 k q · a q) + ∑ k, w2 c k · relu (∑ q, w1 k q · b q).
  The two agree on the extended reals because a rectified value is nonnegative, and multiplication distributes over a
  sum of two nonnegative extended reals whatever the factor (no infinity of the two signs can meet); the finite sums
  then split termwise.
-/
import proofs.«106621_g2000503527179841_pallasbulk_756_1_alg».proof.Proof.Gen.KernelIdeal.Skeleton
import proofs.«106621_g2000503527179841_pallasbulk_756_1_alg».proof.Proof.Gen.ReferenceIdeal.Skeleton
import proofs.«106621_g2000503527179841_pallasbulk_756_1_alg».proof.Proof.LibMatmulPlain
import Idealize.ShloMosaic.Lib.Pipeline.Value
import Idealize.ShloMosaic.Lib.ValueIdx
import Idealize.ShloMosaic.PureOps.Ideal.Laws

noncomputable section

open scoped BigOperators

namespace Cert.Gate

open Idealize.ShloMosaic Idealize.ShloMosaic.ValueIdx Cert.LibMatmulPlain

/-! ## The hidden activations -/

/-- The hidden activation of unit `k` on a column `v`: the rectified inner product of row `k` of `w1` with `v`. -/
def hidden (w1 : FVec Ideal ⟨2, ![16, 256]⟩ .f32) (v : FVec Ideal ⟨2, ![256, 1]⟩ .f32) (k : Fin 16) : EReal :=
  max (∑ q : Fin 256, w1 (ix2 k q) * v (ix2 q (0 : Fin 1))) 0

theorem hidden_nonneg (w1 : FVec Ideal ⟨2, ![16, 256]⟩ .f32) (v : FVec Ideal ⟨2, ![256, 1]⟩ .f32) (k : Fin 16) :
    0 ≤ hidden w1 v k := le_max_right _ _

/-! ## The printed dimension numbers are the plain rows-by-columns ones -/

theorem dotK1 : Cert.KernelIdeal.dot_S16x256_S256x1_S16x1_1_0_0_1_n_n = DotDims.plain 16 256 1 := rfl
theorem dotK2 : Cert.KernelIdeal.dot_S256x16_S16x1_S256x1_1_0_0_1_n_n = DotDims.plain 256 16 1 := rfl
theorem dotR1 : Cert.ReferenceIdeal.dot_S16x256_S256x2_S16x2_1_0_0_1_n_n = DotDims.plain 16 256 2 := rfl
theorem dotR2 : Cert.ReferenceIdeal.dot_S256x16_S16x2_S256x2_1_0_0_1_n_n = DotDims.plain 256 16 2 := rfl

/-! ## The two gates -/

section Gates

variable (w1 : FVec Ideal ⟨2, ![16, 256]⟩ .f32) (w2 : FVec Ideal ⟨2, ![256, 16]⟩ .f32)
  (a b : FVec Ideal ⟨2, ![256, 1]⟩ .f32)

/-- The first body's hidden layer on one column, at unit `k`. -/
theorem hiddenK_apply (v : FVec Ideal ⟨2, ![256, 1]⟩ .f32) (k : Fin 16) :
    maximumf (matmul (DotDims.plain 16 256 1) none w1 v (constant (F := Ideal) ⟨2, ![16, 1]⟩ .f32 0x00000000#32))
        (broadcast ⟨2, ![16, 1]⟩ (Scalar.ofBits (F := Ideal) .f32 0x00000000#32)) (ix2 k (0 : Fin 1))
      = hidden w1 v k := by
  rw [maximumf_apply, matmul_plain_zero_apply, broadcast_apply]
  show max _ (Ideal.ofBits .f32 0x00000000#32) = _
  rw [Ideal.ofBits_zero_f32]
  rfl

/-- The two columns laid side by side, read in the first column: the first piece. -/
theorem sideBySide_left (h : Shape.Concatenates [(⟨2, ![256, 1]⟩ : Shape), ⟨2, ![256, 1]⟩] ⟨2, ![256, 2]⟩ 1) (q : Fin 256) :
    concatenate ⟨2, ![256, 2]⟩ 1 [⟨⟨2, ![256, 1]⟩, a⟩, ⟨⟨2, ![256, 1]⟩, b⟩] h (ix2 q (0 : Fin 2)) = a (ix2 q (0 : Fin 1)) :=
  concatenate_pair_apply_left 1 a b h (ix2 q (0 : Fin 2)) rfl (ix2 q (0 : Fin 1))
    (fun d => by match d with | ⟨0, _⟩ => rfl | ⟨1, _⟩ => rfl)

/-- … and in the second column: the second piece. -/
theorem sideBySide_right (h : Shape.Concatenates [(⟨2, ![256, 1]⟩ : Shape), ⟨2, ![256, 1]⟩] ⟨2, ![256, 2]⟩ 1) (q : Fin 256) :
    concatenate ⟨2, ![256, 2]⟩ 1 [⟨⟨2, ![256, 1]⟩, a⟩, ⟨⟨2, ![256, 1]⟩, b⟩] h (ix2 q (1 : Fin 2)) = b (ix2 q (0 : Fin 1)) :=
  concatenate_pair_apply_right 1 a b h (ix2 q (1 : Fin 2)) rfl rfl (ix2 q (0 : Fin 1))
    (fun d hd => by
      match d, hd with
      | ⟨0, _⟩, _ => rfl
      | ⟨1, _⟩, hd => exact absurd rfl hd)
    rfl

/-- The second body's hidden layer on the two columns side by side, at unit `k`: its first column is the hidden
    activation on `a` … -/
theorem hiddenR_left (h : Shape.Concatenates [(⟨2, ![256, 1]⟩ : Shape), ⟨2, ![256, 1]⟩] ⟨2, ![256, 2]⟩ 1) (k : Fin 16) :
    maximumf (matmul (DotDims.plain 16 256 2) none w1
          (concatenate ⟨2, ![256, 2]⟩ 1 [⟨⟨2, ![256, 1]⟩, a⟩, ⟨⟨2, ![256, 1]⟩, b⟩] h)
          (constant (F := Ideal) ⟨2, ![16, 2]⟩ .f32 0x00000000#32))
        (broadcast ⟨2, ![16, 2]⟩ (Scalar.ofBits (F := Ideal) .f32 0x00000000#32)) (ix2 k (0 : Fin 2))
      = hidden w1 a k := by
  rw [maximumf_apply, matmul_plain_zero_apply, broadcast_apply]
  show max _ (Ideal.ofBits .f32 0x00000000#32) = _
  rw [Ideal.ofBits_zero_f32]
  unfold hidden
  refine congrArg (fun s => max s 0) (Finset.sum_congr rfl fun q _ => ?_)
  rw [sideBySide_left]

/-- … and its second column the one on `b`. -/
theorem hiddenR_right (h : Shape.Concatenates [(⟨2, ![256, 1]⟩ : Shape), ⟨2, ![256, 1]⟩] ⟨2, ![256, 2]⟩ 1) (k : Fin 16) :
    maximumf (matmul (DotDims.plain 16 256 2) none w1
          (concatenate ⟨2, ![256, 2]⟩ 1 [⟨⟨2, ![256, 1]⟩, a⟩, ⟨⟨2, ![256, 1]⟩, b⟩] h)
          (constant (F := Ideal) ⟨2, ![16, 2]⟩ .f32 0x00000000#32))
        (broadcast ⟨2, ![16, 2]⟩ (Scalar.ofBits (F := Ideal) .f32 0x00000000#32)) (ix2 k (1 : Fin 2))
      = hidden w1 b k := by
  rw [maximumf_apply, matmul_plain_zero_apply, broadcast_apply]
  show max _ (Ideal.ofBits .f32 0x00000000#32) = _
  rw [Ideal.ofBits_zero_f32]
  unfold hidden
  refine congrArg (fun s => max s 0) (Finset.sum_congr rfl fun q _ => ?_)
  rw [sideBySide_right]

/-- THE GATES AGREE: one product with `w2` of the summed hidden activations is the sum of the two columns of the product
    of `w2` with the hidden activations side by side. -/
theorem gate_eq (h : Shape.Concatenates [(⟨2, ![256, 1]⟩ : Shape), ⟨2, ![256, 1]⟩] ⟨2, ![256, 2]⟩ 1)
    (hs0 : (⟨2, ![256, 2]⟩ : Shape).Slices ![0, 0] ⟨2, ![256, 1]⟩) (hs1 : (⟨2, ![256, 2]⟩ : Shape).Slices ![0, 1] ⟨2, ![256, 1]⟩) :
    matmul (DotDims.plain 256 16 1) none w2
        (addf
          (maximumf (matmul (DotDims.plain 16 256 1) none w1 a (constant (F := Ideal) ⟨2, ![16, 1]⟩ .f32 0x00000000#32))
            (broadcast ⟨2, ![16, 1]⟩ (Scalar.ofBits (F := Ideal) .f32 0x00000000#32)))
          (maximumf (matmul (DotDims.plain 16 256 1) none w1 b (constant (F := Ideal) ⟨2, ![16, 1]⟩ .f32 0x00000000#32))
            (broadcast ⟨2, ![16, 1]⟩ (Scalar.ofBits (F := Ideal) .f32 0x00000000#32))))
        (constant (F := Ideal) ⟨2, ![256, 1]⟩ .f32 0x00000000#32)
      = addf
          (extractStridedSlice ⟨2, ![256, 1]⟩ ![0, 0]
            (matmul (DotDims.plain 256 16 2) none w2
              (maximumf (matmul (DotDims.plain 16 256 2) none w1
                  (concatenate ⟨2, ![256, 2]⟩ 1 [⟨⟨2, ![256, 1]⟩, a⟩, ⟨⟨2, ![256, 1]⟩, b⟩] h)
                  (constant (F := Ideal) ⟨2, ![16, 2]⟩ .f32 0x00000000#32))
                (broadcast ⟨2, ![16, 2]⟩ (Scalar.ofBits (F := Ideal) .f32 0x00000000#32)))
              (constant (F := Ideal) ⟨2, ![256, 2]⟩ .f32 0x00000000#32)) hs0)
          (extractStridedSlice ⟨2, ![256, 1]⟩ ![0, 1]
            (matmul (DotDims.plain 256 16 2) none w2
              (maximumf (matmul (DotDims.plain 16 256 2) none w1
                  (concatenate ⟨2, ![256, 2]⟩ 1 [⟨⟨2, ![256, 1]⟩, a⟩, ⟨⟨2, ![256, 1]⟩, b⟩] h)
                  (constant (F := Ideal) ⟨2, ![16, 2]⟩ .f32 0x00000000#32))
                (broadcast ⟨2, ![16, 2]⟩ (Scalar.ofBits (F := Ideal) .f32 0x00000000#32)))
              (constant (F := Ideal) ⟨2, ![256, 2]⟩ .f32 0x00000000#32)) hs1) := by
  funext j
  obtain ⟨c, z, rfl⟩ : ∃ (c : Fin 256) (z : Fin 1), j = ix2 c z := ⟨j 0, j 1, eq_ix2 j⟩
  obtain rfl : z = 0 := Subsingleton.elim _ _
  rw [matmul_plain_zero_apply, addf_apply,
    extractStridedSlice_apply ![0, 0] _ hs0 (ix2 c (0 : Fin 1)) (ix2 c (0 : Fin 2))
      (fun d => by match d with | ⟨0, _⟩ => (show c.val = 0 + c.val; omega) | ⟨1, _⟩ => rfl),
    extractStridedSlice_apply ![0, 1] _ hs1 (ix2 c (0 : Fin 1)) (ix2 c (1 : Fin 2))
      (fun d => by match d with | ⟨0, _⟩ => (show c.val = 0 + c.val; omega) | ⟨1, _⟩ => rfl),
    matmul_plain_zero_apply, matmul_plain_zero_apply]
  simp only [addf_apply, hiddenK_apply, hiddenR_left, hiddenR_right]
  exact sum_mul_add_of_nonneg _ _ _ (hidden_nonneg w1 a) (hidden_nonneg w1 b)

end Gates

/-! ## The two bodies are one function of an image and the weights -/

/-- What each body stores for an image block `x` and the weights: `x` scaled channel by channel by the logistic of its
    gate. The two printed payloads differ in the gate alone (`gate_eq`). -/
theorem payload_eq (x : Vec Ideal ⟨3, ![1, 256, 4096]⟩ .f32) (w1 : Vec Ideal ⟨2, ![16, 256]⟩ .f32)
    (w2 : Vec Ideal ⟨2, ![256, 16]⟩ .f32) :
    Cert.KernelIdeal.Gen.k0_pay1 (F := Ideal) x w1 w2 = Cert.ReferenceIdeal.Gen.k0_pay1 (F := Ideal) x w1 w2 := by
  dsimp only [Cert.KernelIdeal.Gen.k0_pay1, Cert.ReferenceIdeal.Gen.k0_pay1]
  rw [dotK1, dotK2, dotR1, dotR2]
  rw [gate_eq w1 w2 _ _ Cert.ReferenceIdeal.Facts₀.concatenates_S256x1_S256x1_S256x2_d1
    Cert.ReferenceIdeal.Facts₀.slices_S256x2_o0_0_S256x1 Cert.ReferenceIdeal.Facts₀.slices_S256x2_o0_1_S256x1]

/-- The same, as an equation between the two functions. -/
theorem payload_fun_eq :
    (Cert.KernelIdeal.Gen.k0_pay1 (F := Ideal) : Vec Ideal ⟨3, ![1, 256, 4096]⟩ .f32 → Vec Ideal ⟨2, ![16, 256]⟩ .f32 →
        Vec Ideal ⟨2, ![256, 16]⟩ .f32 → FVec Ideal ⟨3, ![1, 256, 4096]⟩ .f32)
      = Cert.ReferenceIdeal.Gen.k0_pay1 (F := Ideal) :=
  funext fun x => funext fun w1 => funext fun w2 => payload_eq x w1 w2

end Cert.Gate

end
-- ==== Proof.Spec.lean ====
/-
  The result of both programs as ONE function of the three arguments.

  The input `x : [32, 256, 64, 64]` is a batch of 32 images of 256 channels; each program folds the two spatial axes
  into one (`[32, 256, 4096]`), treats every image on its own — the image's channel gate is computed from that image
  alone and scales it — and unfolds the spatial axes again. So the result is determined by what is done to ONE image
  `[1, 256, 4096]` given the two weight matrices: a function `body`. `perImage body` applies it image by image, and
  `result body` wraps that in the two changes of layout.
-/
import Idealize.ShloMosaic.Lib.ValueIdx

noncomputable section

namespace Cert.Spec

open Idealize.ShloMosaic Idealize.ShloMosaic.ValueIdx

/-- The argument's layout, the batch with the spatial axes folded, one image of it, and the two weight matrices. -/
abbrev SArg : Shape := ⟨4, ![32, 256, 64, 64]⟩
abbrev SBatch : Shape := ⟨3, ![32, 256, 4096]⟩
abbrev SImage : Shape := ⟨3, ![1, 256, 4096]⟩
abbrev SW1 : Shape := ⟨2, ![16, 256]⟩
abbrev SW2 : Shape := ⟨2, ![256, 16]⟩

/-- What is done to one image, given the weights. -/
abbrev Body : Type := (SImage.Idx → EReal) → (SW1.Idx → EReal) → (SW2.Idx → EReal) → SImage.Idx → EReal

/-- Image `n` of a batch, with its leading unit axis: entry (0, r, l) is the batch's entry (n, r, l). -/
def image (X : SBatch.Idx → EReal) (n : Fin 32) : SImage.Idx → EReal :=
  fun y => X (ix3 n (y 1 : Fin 256) (y 2 : Fin 4096))

/-- The batch assembled image by image: entry (n, r, l) is entry (0, r, l) of `body` on image `n`. -/
def perImage (body : Body) (X : SBatch.Idx → EReal) (w1 : SW1.Idx → EReal) (w2 : SW2.Idx → EReal) : SBatch.Idx → EReal :=
  fun i => body (image X (i 0 : Fin 32)) w1 w2 (ix3 (0 : Fin 1) (i 1 : Fin 256) (i 2 : Fin 4096))

/-- An entry (n, r, l) of the assembled batch, read at image `n`'s entry with the same channel and position. -/
theorem perImage_apply (body : Body) (X : SBatch.Idx → EReal) (w1 : SW1.Idx → EReal) (w2 : SW2.Idx → EReal)
    (n : Fin 32) (i : SBatch.Idx) (j : SImage.Idx)
    (h0 : (i 0).val = n.val) (h1 : (i 1).val = (j 1).val) (h2 : (i 2).val = (j 2).val) :
    perImage body X w1 w2 i = body (image X n) w1 w2 j := by
  have hn : (i 0 : Fin 32) = n := Fin.ext h0
  have hj : ix3 (0 : Fin 1) (i 1 : Fin 256) (i 2 : Fin 4096) = j := by
    funext a; apply Fin.ext
    match a with
    | ⟨0, _⟩ =>
      have hlt : (j 0).val < 1 := (j 0).isLt
      show 0 = (j 0).val
      omega
    | ⟨1, _⟩ => exact h1
    | ⟨2, _⟩ => exact h2
  unfold perImage
  rw [hn]
  exact congrArg (body (image X n) w1 w2) hj

/-- The whole program: fold the spatial axes, work image by image, unfold them. -/
def result (body : Body) (hin : SArg.ShapeCasts SBatch) (hout : SBatch.ShapeCasts SArg)
    (x : SArg.Idx → EReal) (w1 : SW1.Idx → EReal) (w2 : SW2.Idx → EReal) : SArg.Idx → EReal :=
  shapeCast SArg (perImage body (shapeCast SBatch x hin) w1 w2) hout

end Cert.Spec

end
-- ==== Proof.KernelArray.lean ====
/-
  What the program's result array holds after the run, as a function of the three arguments.

  The one region runs over 32 grid points; point `t` stages image `t` of the folded batch (block (t, 0, 0) of size
  [1, 256, 4096]) and the two weight matrices whole (block (0, 0)), and writes back image `t` of the output. So what a
  point writes back is the body's payload on image `t` and the weights, the 32 blocks tile the output array, and the
  array ends as the payload applied image by image (`Cert.Spec.perImage`). The host line before the region folds the
  argument's spatial axes, the one after it unfolds the output's: the result is `Cert.Spec.result` of the payload.
-/
import proofs.«106621_g2000503527179841_pallasbulk_756_1_alg».proof.Proof.Gen.KernelIdeal.Frame
import proofs.«106621_g2000503527179841_pallasbulk_756_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The blocks at a point -/

/-- The printed index maps, decided over the 32 points: the image windows (input 0, output 3) are at block (t, 0, 0),
    the weight windows at block (0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Input window 0's block at point `t` is image `t` of the folded batch as the region finds it. -/
theorem image_block (c : Dev nD) (t : Fin cfg0.N) :
    iblk m c 0 t = Cert.Spec.image (V m c main_v0) (t.cast N_0) := by
  obtain ⟨e0, e1, e2, -⟩ := index_facts t
  funext y
  show V m c main_v0 (((cfg0.win 0).blk t).view.emb y) = V m c main_v0 (ix3 (t.cast N_0) (y 1 : Fin 256) (y 2 : Fin 4096))
  refine congrArg (V m c main_v0) ?_
  funext a; apply Fin.ext
  match a with
  | ⟨0, _⟩ =>
    have hy : (y 0).val < 1 := (y 0).isLt
    show win0_0.index t (0 : Fin 3) * 1 + 1 * (y 0).val = t.val
    omega
  | ⟨1, _⟩ => show win0_0.index t (1 : Fin 3) * 256 + 1 * (y 1).val = (y 1).val; omega
  | ⟨2, _⟩ => show win0_0.index t (2 : Fin 3) * 4096 + 1 * (y 2).val = (y 2).val; omega

/-- Input window 1's block at every point is the first weight matrix, whole. -/
theorem w1_block (c : Dev nD) (t : Fin cfg0.N) : iblk m c 1 t = V m c main_arg1 := by
  obtain ⟨-, -, -, e0, e1, -⟩ := index_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 16 + 1 * (y 0).val = (y 0).val; omega
  | ⟨1, _⟩ => show win0_1.index t (1 : Fin 2) * 256 + 1 * (y 1).val = (y 1).val; omega

/-- Input window 2's block at every point is the second weight matrix, whole. -/
theorem w2_block (c : Dev nD) (t : Fin cfg0.N) : iblk m c 2 t = V m c main_arg2 := by
  obtain ⟨-, -, -, -, -, e0, e1, -⟩ := index_facts t
  funext y
  show V m c main_arg2 (((cfg0.win 2).blk t).view.emb y) = V m c main_arg2 y
  refine congrArg (V m c main_arg2) ?_
  funext a; apply Fin.ext
  match a with
  | ⟨0, _⟩ => show win0_2.index t (0 : Fin 2) * 256 + 1 * (y 0).val = (y 0).val; omega
  | ⟨1, _⟩ => show win0_2.index t (1 : Fin 2) * 16 + 1 * (y 1).val = (y 1).val; omega

/-! ## What a point writes back -/

/-- WHAT POINT `t` WRITES BACK is block `t` of the payload applied image by image to the arrays as the region finds them. -/
theorem flushed_eq (c : Dev nD) (t : Fin cfg0.N) :
    (dats m 0 c).flushed 3 t = ((cfg0.win 3).blk t).view.read (Elt Ideal)
      (Cert.Spec.perImage (k0_pay1 (F := Ideal)) (V m c main_v0) (V m c main_arg1) (V m c main_arg2)) := by
  show (cfg0.win 3).cut (grid0.coords t) ((dats m 0 c).after 3 t) = _
  rw [after0_3]
  unfold out0_3
  rw [View.canon_unit_zero zeros3]
  simp only [View.ld_unit_zero (S := S1x256x4096) zeros3, View.ld_unit_zero (S := S16x256) zeros2,
    View.ld_unit_zero (S := S256x16) zeros2]
  rw [image_block m c t, w1_block m c t, w2_block m c t]
  obtain ⟨-, -, -, -, -, -, -, e0, e1, e2⟩ := index_facts t
  funext j
  show k0_pay1 (F := Ideal) (Cert.Spec.image (V m c main_v0) (t.cast N_0)) (V m c main_arg1) (V m c main_arg2) j
    = Cert.Spec.perImage (k0_pay1 (F := Ideal)) (V m c main_v0) (V m c main_arg1) (V m c main_arg2)
        (((cfg0.win 3).blk t).view.emb j)
  refine (Cert.Spec.perImage_apply (k0_pay1 (F := Ideal)) (V m c main_v0) (V m c main_arg1) (V m c main_arg2)
    (t.cast N_0) (((cfg0.win 3).blk t).view.emb j) j ?_ ?_ ?_).symm
  · have hj : (j 0).val < 1 := (j 0).isLt
    show win0_3.index t (0 : Fin 3) * 1 + 1 * (j 0).val = t.val
    omega
  · show win0_3.index t (1 : Fin 3) * 256 + 1 * (j 1).val = (j 1).val; omega
  · show win0_3.index t (2 : Fin 3) * 4096 + 1 * (j 2).val = (j 2).val; omega

/-! ## The 32 blocks tile the output array -/

/-- An index of the output array is in point `t`'s block iff each coordinate is in the block's range on its axis. -/
theorem mem_block (t : Fin cfg0.N) (i : S32x256x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v1).slice (win0_3.rect t)).set ↔ _
  rw [View.set_slice_whole, Rect.mem_set_unit]
  exact Iff.rfl

/-- Entry (n, r, l) of the output array is in the block of point `n`. -/
theorem cover (i : S32x256x4096.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 4096 := (i 2).isLt
  have hN : grid0.N = 32 := N_0
  have ht : (i 0).val < cfg0.N := by show (i 0).val < grid0.N; omega
  obtain ⟨-, -, -, -, -, -, -, e0, e1, e2⟩ := index_facts ⟨(i 0).val, ht⟩
  refine ⟨⟨(i 0).val, ht⟩, flush0_3 _, ?_⟩
  rw [mem_block]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    have : (⟨(i 0).val, ht⟩ : Fin cfg0.N).val = (i 0).val := rfl
    omega
  | ⟨1, _⟩ =>
    show win0_3.index ⟨(i 0).val, ht⟩ (1 : Fin 3) * 256 ≤ (i 1).val ∧ (i 1).val < win0_3.index ⟨(i 0).val, ht⟩ (1 : Fin 3) * 256 + 256
    omega
  | ⟨2, _⟩ =>
    show win0_3.index ⟨(i 0).val, ht⟩ (2 : Fin 3) * 4096 ≤ (i 2).val ∧ (i 2).val < win0_3.index ⟨(i 0).val, ht⟩ (2 : Fin 3) * 4096 + 4096
    omega

/-- THE OUTPUT ARRAY after the region: the payload applied image by image. -/
theorem final (c : Dev nD) : (dats m 0 c).arrAt 3 cfg0.N
    = Cert.Spec.perImage (k0_pay1 (F := Ideal)) (V m c main_v0) (V m c main_arg1) (V m c main_arg2) :=
  (dats m 0 c).arrAt_eq_of_cover 3 _ (fun t _ => flushed_eq m c t) cover

/-! ## The host lines around the region -/

/-- The region finds the batch with its spatial axes folded: the host line before it. -/
theorem folded (c : Dev nD) : (V m c main_v0 : S32x256x4096.Idx → EReal)
    = shapeCast S32x256x4096 (m ((c.tc : Thread nD τ).loc main_arg0)) Facts₀.shapeCasts_S32x256x64x64_S32x256x4096 := by
  show StableHlo.after hostOps0 (fun b => m (c, b)) (Proc.devRef .tc main_v0) = _
  after_results
  rfl

/-- The result: the host line after the region unfolds the output array's spatial axes. -/
theorem unfolded (c : Dev nD) : Pipeline.afterTail₀ cfgs (dats m) 0 (V0 m) [hostOps1] c main_v2
    = Cert.Spec.result (k0_pay1 (F := Ideal)) Facts₀.shapeCasts_S32x256x64x64_S32x256x4096
        Facts₀.shapeCasts_S32x256x4096_S32x256x64x64
        (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 3 cfg0.N := Pipeline.withArrays_arr spec0 launch0.win.arr_inj c _ _ 3
  rw [hw, final m c, folded m c, V_main_arg1 m c, V_main_arg2 m c]
  rfl

/-! ## The run, read -/

/-- Every weakly fair execution terminates with the result at `Cert.Spec.result` of the payload and the three arguments,
    and the arguments unchanged. -/
theorem run : θ_run defs (onTc (τ := τ) (main (F := Ideal))) ⟨m, fun _ => 0, ρ⟩ fun r => ∀ c : Dev nD,
      r.2.mem ((c.tc : Thread nD τ).loc main_v2)
        = Cert.Spec.result (k0_pay1 (F := Ideal)) Facts₀.shapeCasts_S32x256x64x64_S32x256x4096
            Facts₀.shapeCasts_S32x256x4096_S32x256x64x64
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (unfolded m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Array

end
-- ==== Proof.ReferenceArray.lean ====
/-
  What the program's result array holds after the run, as a function of the three arguments.

  The one region runs over 32 grid points; point `t` stages image `t` of the folded batch (block (t, 0, 0) of size
  [1, 256, 4096]) and the two weight matrices whole (block (0, 0)), and writes back image `t` of the output. So what a
  point writes back is the body's payload on image `t` and the weights, the 32 blocks tile the output array, and the
  array ends as the payload applied image by image (`Cert.Spec.perImage`). The host line before the region folds the
  argument's spatial axes, the one after it unfolds the output's: the result is `Cert.Spec.result` of the payload.
-/
import proofs.«106621_g2000503527179841_pallasbulk_756_1_alg».proof.Proof.Gen.ReferenceIdeal.Frame
import proofs.«106621_g2000503527179841_pallasbulk_756_1_alg».proof.Proof.Spec
import Idealize.ShloMosaic.Lib.Pipeline.Value
import Idealize.ShloMosaic.Lib.ValueIdx
import Idealize.ShloMosaic.Lib.StableHlo.Run

set_option maxRecDepth 16384

noncomputable section

namespace Cert.ReferenceIdeal.Array

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The blocks at a point -/

/-- The printed index maps, decided over the 32 points: the image windows (input 0, output 3) are at block (t, 0, 0),
    the weight windows at block (0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Input window 0's block at point `t` is image `t` of the folded batch as the region finds it. -/
theorem image_block (c : Dev nD) (t : Fin cfg0.N) :
    iblk m c 0 t = Cert.Spec.image (V m c main_v0) (t.cast N_0) := by
  obtain ⟨e0, e1, e2, -⟩ := index_facts t
  funext y
  show V m c main_v0 (((cfg0.win 0).blk t).view.emb y) = V m c main_v0 (ix3 (t.cast N_0) (y 1 : Fin 256) (y 2 : Fin 4096))
  refine congrArg (V m c main_v0) ?_
  funext a; apply Fin.ext
  match a with
  | ⟨0, _⟩ =>
    have hy : (y 0).val < 1 := (y 0).isLt
    show win0_0.index t (0 : Fin 3) * 1 + 1 * (y 0).val = t.val
    omega
  | ⟨1, _⟩ => show win0_0.index t (1 : Fin 3) * 256 + 1 * (y 1).val = (y 1).val; omega
  | ⟨2, _⟩ => show win0_0.index t (2 : Fin 3) * 4096 + 1 * (y 2).val = (y 2).val; omega

/-- Input window 1's block at every point is the first weight matrix, whole. -/
theorem w1_block (c : Dev nD) (t : Fin cfg0.N) : iblk m c 1 t = V m c main_arg1 := by
  obtain ⟨-, -, -, e0, e1, -⟩ := index_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 16 + 1 * (y 0).val = (y 0).val; omega
  | ⟨1, _⟩ => show win0_1.index t (1 : Fin 2) * 256 + 1 * (y 1).val = (y 1).val; omega

/-- Input window 2's block at every point is the second weight matrix, whole. -/
theorem w2_block (c : Dev nD) (t : Fin cfg0.N) : iblk m c 2 t = V m c main_arg2 := by
  obtain ⟨-, -, -, -, -, e0, e1, -⟩ := index_facts t
  funext y
  show V m c main_arg2 (((cfg0.win 2).blk t).view.emb y) = V m c main_arg2 y
  refine congrArg (V m c main_arg2) ?_
  funext a; apply Fin.ext
  match a with
  | ⟨0, _⟩ => show win0_2.index t (0 : Fin 2) * 256 + 1 * (y 0).val = (y 0).val; omega
  | ⟨1, _⟩ => show win0_2.index t (1 : Fin 2) * 16 + 1 * (y 1).val = (y 1).val; omega

/-! ## What a point writes back -/

/-- WHAT POINT `t` WRITES BACK is block `t` of the payload applied image by image to the arrays as the region finds them. -/
theorem flushed_eq (c : Dev nD) (t : Fin cfg0.N) :
    (dats m 0 c).flushed 3 t = ((cfg0.win 3).blk t).view.read (Elt Ideal)
      (Cert.Spec.perImage (k0_pay1 (F := Ideal)) (V m c main_v0) (V m c main_arg1) (V m c main_arg2)) := by
  show (cfg0.win 3).cut (grid0.coords t) ((dats m 0 c).after 3 t) = _
  rw [after0_3]
  unfold out0_3
  rw [View.canon_unit_zero zeros3]
  simp only [View.ld_unit_zero (S := S1x256x4096) zeros3, View.ld_unit_zero (S := S16x256) zeros2,
    View.ld_unit_zero (S := S256x16) zeros2]
  rw [image_block m c t, w1_block m c t, w2_block m c t]
  obtain ⟨-, -, -, -, -, -, -, e0, e1, e2⟩ := index_facts t
  funext j
  show k0_pay1 (F := Ideal) (Cert.Spec.image (V m c main_v0) (t.cast N_0)) (V m c main_arg1) (V m c main_arg2) j
    = Cert.Spec.perImage (k0_pay1 (F := Ideal)) (V m c main_v0) (V m c main_arg1) (V m c main_arg2)
        (((cfg0.win 3).blk t).view.emb j)
  refine (Cert.Spec.perImage_apply (k0_pay1 (F := Ideal)) (V m c main_v0) (V m c main_arg1) (V m c main_arg2)
    (t.cast N_0) (((cfg0.win 3).blk t).view.emb j) j ?_ ?_ ?_).symm
  · have hj : (j 0).val < 1 := (j 0).isLt
    show win0_3.index t (0 : Fin 3) * 1 + 1 * (j 0).val = t.val
    omega
  · show win0_3.index t (1 : Fin 3) * 256 + 1 * (j 1).val = (j 1).val; omega
  · show win0_3.index t (2 : Fin 3) * 4096 + 1 * (j 2).val = (j 2).val; omega

/-! ## The 32 blocks tile the output array -/

/-- An index of the output array is in point `t`'s block iff each coordinate is in the block's range on its axis. -/
theorem mem_block (t : Fin cfg0.N) (i : S32x256x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v1).slice (win0_3.rect t)).set ↔ _
  rw [View.set_slice_whole, Rect.mem_set_unit]
  exact Iff.rfl

/-- Entry (n, r, l) of the output array is in the block of point `n`. -/
theorem cover (i : S32x256x4096.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 4096 := (i 2).isLt
  have hN : grid0.N = 32 := N_0
  have ht : (i 0).val < cfg0.N := by show (i 0).val < grid0.N; omega
  obtain ⟨-, -, -, -, -, -, -, e0, e1, e2⟩ := index_facts ⟨(i 0).val, ht⟩
  refine ⟨⟨(i 0).val, ht⟩, flush0_3 _, ?_⟩
  rw [mem_block]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    have : (⟨(i 0).val, ht⟩ : Fin cfg0.N).val = (i 0).val := rfl
    omega
  | ⟨1, _⟩ =>
    show win0_3.index ⟨(i 0).val, ht⟩ (1 : Fin 3) * 256 ≤ (i 1).val ∧ (i 1).val < win0_3.index ⟨(i 0).val, ht⟩ (1 : Fin 3) * 256 + 256
    omega
  | ⟨2, _⟩ =>
    show win0_3.index ⟨(i 0).val, ht⟩ (2 : Fin 3) * 4096 ≤ (i 2).val ∧ (i 2).val < win0_3.index ⟨(i 0).val, ht⟩ (2 : Fin 3) * 4096 + 4096
    omega

/-- THE OUTPUT ARRAY after the region: the payload applied image by image. -/
theorem final (c : Dev nD) : (dats m 0 c).arrAt 3 cfg0.N
    = Cert.Spec.perImage (k0_pay1 (F := Ideal)) (V m c main_v0) (V m c main_arg1) (V m c main_arg2) :=
  (dats m 0 c).arrAt_eq_of_cover 3 _ (fun t _ => flushed_eq m c t) cover

/-! ## The host lines around the region -/

/-- The region finds the batch with its spatial axes folded: the host line before it. -/
theorem folded (c : Dev nD) : (V m c main_v0 : S32x256x4096.Idx → EReal)
    = shapeCast S32x256x4096 (m ((c.tc : Thread nD τ).loc main_arg0)) Facts₀.shapeCasts_S32x256x64x64_S32x256x4096 := by
  show StableHlo.after hostOps0 (fun b => m (c, b)) (Proc.devRef .tc main_v0) = _
  after_results
  rfl

/-- The result: the host line after the region unfolds the output array's spatial axes. -/
theorem unfolded (c : Dev nD) : Pipeline.afterTail₀ cfgs (dats m) 0 (V0 m) [hostOps1] c main_v2
    = Cert.Spec.result (k0_pay1 (F := Ideal)) Facts₀.shapeCasts_S32x256x64x64_S32x256x4096
        Facts₀.shapeCasts_S32x256x4096_S32x256x64x64
        (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 3 cfg0.N := Pipeline.withArrays_arr spec0 launch0.win.arr_inj c _ _ 3
  rw [hw, final m c, folded m c, V_main_arg1 m c, V_main_arg2 m c]
  rfl

/-! ## The run, read -/

/-- Every weakly fair execution terminates with the result at `Cert.Spec.result` of the payload and the three arguments,
    and the arguments unchanged. -/
theorem run : θ_run defs (onTc (τ := τ) (main (F := Ideal))) ⟨m, fun _ => 0, ρ⟩ fun r => ∀ c : Dev nD,
      r.2.mem ((c.tc : Thread nD τ).loc main_v2)
        = Cert.Spec.result (k0_pay1 (F := Ideal)) Facts₀.shapeCasts_S32x256x64x64_S32x256x4096
            Facts₀.shapeCasts_S32x256x4096_S32x256x64x64
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (unfolded m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Array

end
-- ==== Proof.lean ====
/-
  The channel-attention kernel against its reference, at the ideal values.

  Both programs fold the spatial axes of a batch `x : [32, 256, 64, 64]`, run one region over the 32 images, and unfold
  the axes again. For an image `X : [256, 4096]` and weights `w1 : [16, 256]`, `w2 : [256, 16]` each body stores
      X r l · logistic (gate r),
  where the gate is computed from the row sums scaled by 1/4096 and the row maxima of `X` through the two-layer
  perceptron. The kernel adds the two rectified hidden vectors and multiplies by `w2` once; the reference multiplies the
  two hidden columns by `w2` side by side and adds the two resulting columns. The gates agree because multiplication
  distributes over a sum of nonnegative extended reals (Proof/Gate.lean); no finiteness of the inputs is used.
  Each program's result is then the same function `Cert.Spec.result` of its payload and the arguments
  (Proof/KernelArray.lean, Proof/ReferenceArray.lean: each point writes back its image, the 32 blocks tile the output).
  The three frames are the generated ones, and the idealization rewrote nothing.
-/
import proofs.«106621_g2000503527179841_pallasbulk_756_1_alg».proof.Defs
import proofs.«106621_g2000503527179841_pallasbulk_756_1_alg».proof.Proof.Gen.Kernel
import proofs.«106621_g2000503527179841_pallasbulk_756_1_alg».proof.Proof.Gen.Kernel.Frame
import proofs.«106621_g2000503527179841_pallasbulk_756_1_alg».proof.Proof.Gen.KernelIdeal
import proofs.«106621_g2000503527179841_pallasbulk_756_1_alg».proof.Proof.Gen.KernelIdeal.Frame
import proofs.«106621_g2000503527179841_pallasbulk_756_1_alg».proof.Proof.Gen.ReferenceIdeal
import proofs.«106621_g2000503527179841_pallasbulk_756_1_alg».proof.Proof.Gen.ReferenceIdeal.Frame
import proofs.«106621_g2000503527179841_pallasbulk_756_1_alg».proof.Proof.Gen.Pre_finite_inputs
import proofs.«106621_g2000503527179841_pallasbulk_756_1_alg».proof.Proof.Gate
import proofs.«106621_g2000503527179841_pallasbulk_756_1_alg».proof.Proof.KernelArray
import proofs.«106621_g2000503527179841_pallasbulk_756_1_alg».proof.Proof.ReferenceArray
import Idealize.ShloMosaic.Adequacy
import Idealize.ShloMosaic.Init

noncomputable section

namespace Cert.Proof

open Idealize.ShloMosaic Idealize.SL.Sem

/-- The three programs run and leave their arguments as they found them: the generated frames. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealized kernel is the kernel's own text read at the ideal values: nothing was rewritten. -/
theorem preserves : Cert.preserves_Kernel_KernelIdeal := trivial

/-- From memories that agree on the arguments both idealized programs end with the result at `Cert.Spec.result` of
    their payloads, and the two payloads are one function. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Array.run m' ρ')
  rw [(hagree c).1, (hagree c).2.1, (hagree c).2.2]
  exact congrArg (fun body : Cert.Spec.Body => Cert.Spec.result body _ _ _ _ _) Cert.Gate.payload_fun_eq.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
